-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1280000 32) (main_arg2 : FVec F S64x128 .f32) (main_arg3 : FVec F S128 .f32) (main_arg4 : FVec F S128x1 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S10000x64 : Shape := ⟨2, ![10000, 64]⟩
abbrev S10000x1 : Shape := ⟨2, ![10000, 1]⟩
abbrev S10000x128 : Shape := ⟨2, ![10000, 128]⟩
abbrev S1x128 : Shape := ⟨2, ![1, 128]⟩
abbrev S1x1 : Shape := ⟨2, ![1, 1]⟩
abbrev S100000 : Shape := ⟨1, ![100000]⟩

abbrev nBuf : Space → Nat
  | .hbm => 27
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S100000x64, .bf16⟩
  | .hbm, ⟨11, _⟩ => ⟨S_, .i32⟩
  | .hbm, ⟨12, _⟩ => ⟨S1280000, .i32⟩
  | .hbm, ⟨13, _⟩ => ⟨S1280000, .i1⟩
  | .hbm, ⟨14, _⟩ => ⟨S_, .i32⟩
  | .hbm, ⟨15, _⟩ => ⟨S1280000, .i32⟩
  | .hbm, ⟨16, _⟩ => ⟨S1280000, .i32⟩
  | .hbm, ⟨17, _⟩ => ⟨S1280000, .i32⟩
  | .hbm, ⟨18, _⟩ => ⟨S1280000x1, .i32⟩
  | .hbm, ⟨19, _⟩ => ⟨S1280000x64, .bf16⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S100000x1, .f32⟩
  | .hbm, ⟨26, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S10000x1, .f32⟩
  | .local _ .vmem, ⟨7, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bitsLt_bf16_f32 : FTy.bits .bf16 < FTy.bits .f32
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S10000x64_S64x128_S10000x128_1_0_0_1_n_n_wf : DotDims.WF S10000x64 S64x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v15) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S_, .i32⟩
  | .hbm, ⟨11, _⟩ => ⟨S1280000, .i32⟩
  | .hbm, ⟨12, _⟩ => ⟨S1280000, .i1⟩
  | .hbm, ⟨13, _⟩ => ⟨S_, .i32⟩
  | .hbm, ⟨14, _⟩ => ⟨S1280000, .i32⟩
  | .hbm, ⟨15, _⟩ => ⟨S1280000, .i32⟩
  | .hbm, ⟨16, _⟩ => ⟨S1280000, .i32⟩
  | .hbm, ⟨17, _⟩ => ⟨S1280000x1, .i32⟩
  | .hbm, ⟨18, _⟩ => ⟨S1280000x64, .f32⟩
  | .hbm, ⟨19, _⟩ => ⟨S_, .f32⟩
  | .hbm, ⟨20, _⟩ => ⟨S100000x64, .f32⟩
  | .hbm, ⟨21, _⟩ => ⟨S1280000x1, .i32⟩
  | .hbm, ⟨22, _⟩ => ⟨S100000x64, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x1, .f32⟩
  | .hbm, ⟨31, _⟩ => ⟨S1x1, .f32⟩
  | .hbm, ⟨32, _⟩ => ⟨S100000x1, .f32⟩
  | .hbm, ⟨33, _⟩ => ⟨S100000x1, .f32⟩
  | .hbm, ⟨34, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x128_S100000x128_1_0_0_1_n_n_wf : DotDims.WF S100000x64 S64x128 S100000x128 [1] [0] [0] [1] [] []
  dot_S100000x128_S128x1_S100000x1_1_0_0_1_n_n_wf : DotDims.WF S100000x128 S128x1 S100000x1 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The scores of a two-layer perceptron, one row at a time, on the extended reals.

  For a row `a` of 64 features the score is
      ( Σ_j  max( Σ_k a_k · W1[k, j] + b1[j], 0 ) · W2[j, 0] ) + b2[0],
  `j` over the 128 hidden units and `k` over the 64 features.  Every row of the result depends on one row of the
  features only, so a block of rows of the result is the result of the block of rows.

  `scores` is the whole result as a vector of 100000 entries, `scoresCol` the same numbers as a one-column matrix.
  Two small facts about the operations both programs are made of are read at an entry here: a matrix product with the
  plain dimension numbers, accumulated into the zero splat or with no accumulator at all, is the inner product of a row
  with a column; a vector cast to one row and repeated down the rows reads the vector at the column.  Last, dropping the
  unit axis of the column gives the vector.
-/
import Idealize.ShloMosaic.Lib.StackMember
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.Mlp

open Idealize.ShloMosaic Idealize.ShloMosaic.ValueIdx

/-- The score of one row `a` of features: the hidden layer `max (a · W1 + b1) 0` contracted with the one column of
    `W2`, plus the one entry of `b2`. -/
def score (a : Fin 64 → EReal) (W1 : FVec Ideal ⟨2, ![64, 128]⟩ .f32) (b1 : FVec Ideal ⟨1, ![128]⟩ .f32)
    (W2 : FVec Ideal ⟨2, ![128, 1]⟩ .f32) (b2 : FVec Ideal ⟨1, ![1]⟩ .f32) : EReal :=
  (∑ j : Fin 128, max ((∑ k : Fin 64, a k * W1 (ix2 k j)) + b1 (ix1 j)) (Ideal.ofBits .f32 0x00000000#32)
      * W2 (ix2 j (0 : Fin 1)))
    + b2 (ix1 (0 : Fin 1))

/-- The scores of all 100000 rows of `aggr`, as a vector. -/
def scores (aggr : FVec Ideal ⟨2, ![100000, 64]⟩ .f32) (W1 : FVec Ideal ⟨2, ![64, 128]⟩ .f32) (b1 : FVec Ideal ⟨1, ![128]⟩ .f32)
    (W2 : FVec Ideal ⟨2, ![128, 1]⟩ .f32) (b2 : FVec Ideal ⟨1, ![1]⟩ .f32) : FVec Ideal ⟨1, ![100000]⟩ .f32 :=
  fun i => score (fun k => aggr (ix2 (i 0 : Fin 100000) k)) W1 b1 W2 b2

/-- The same scores as a matrix of one column: entry (r, 0) is the score of row `r`. -/
def scoresCol (aggr : FVec Ideal ⟨2, ![100000, 64]⟩ .f32) (W1 : FVec Ideal ⟨2, ![64, 128]⟩ .f32) (b1 : FVec Ideal ⟨1, ![128]⟩ .f32)
    (W2 : FVec Ideal ⟨2, ![128, 1]⟩ .f32) (b2 : FVec Ideal ⟨1, ![1]⟩ .f32) : FVec Ideal ⟨2, ![100000, 1]⟩ .f32 :=
  fun i => score (fun k => aggr (ix2 (i 0 : Fin 100000) k)) W1 b1 W2 b2

/-- A product with the plain dimension numbers (rows by columns, one contracted axis, no batch axis) accumulated into
    the zero splat, read at entry (a, b): the inner product of row `a` of the left factor with column `b` of the
    right one. -/
theorem matmul_entry {m k n : Nat} (d : DotDims ⟨2, ![m, k]⟩ ⟨2, ![k, n]⟩ ⟨2, ![m, n]⟩) (hd : d = DotDims.plain m k n)
    {φ₁ φ₂ : FTy} (A : FVec Ideal ⟨2, ![m, k]⟩ φ₁) (B : FVec Ideal ⟨2, ![k, n]⟩ φ₂) (a : Fin m) (b : Fin n) :
    matmul d none A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply none A B a b

/-- The host's product with the same dimension numbers, read at an entry: the same inner product. -/
theorem dotGeneral_entry {m k n : Nat} (d : DotDims ⟨2, ![m, k]⟩ ⟨2, ![k, n]⟩ ⟨2, ![m, n]⟩) (hd : d = DotDims.plain m k n)
    {φ₁ φ₂ : FTy} (A : FVec Ideal ⟨2, ![m, k]⟩ φ₁) (B : FVec Ideal ⟨2, ![k, n]⟩ φ₂) (a : Fin m) (b : Fin n) :
    Host.dotGeneral d none A B (ix2 a b) = ∑ c : Fin k, A (ix2 a c) * B (ix2 c b) := by
  subst hd
  exact StackMember.dotGeneral_plain_apply none A B a b

/-- A vector of `n` entries cast to one row and repeated down `m` rows, read at (r, t), is the vector at `t`. -/
theorem rowBias_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (t : Fin n) :
    broadcastTo ⟨2, ![m, n]⟩ (shapeCast ⟨2, ![1, n]⟩ x h1) hb (ix2 r t) = x (ix1 t) := by
  have e1 := broadcastTo_apply (shapeCast ⟨2, ![1, n]⟩ x h1) hb (ix2 r t) (ix2 (0 : Fin 1) t) (by
    intro a
    match a with
    | ⟨0, _⟩ => rfl
    | ⟨1, _⟩ =>
      show t.val = if n = 1 then 0 else t.val
      split
      · have := t.isLt; omega
      · rfl)
  have e2 := shapeCast_apply x h1 (ix2 (0 : Fin 1) t) (ix1 t) (by
    rw [Shape.rowMajor_val_two, Shape.rowMajor_val_one]; show t.val = 0 * n + t.val; omega)
  exact e1.trans e2

/-- Dropping the unit axis of the one-column matrix of scores gives the vector of scores. -/
theorem squeeze_scoresCol (aggr : FVec Ideal ⟨2, ![100000, 64]⟩ .f32) (W1 : FVec Ideal ⟨2, ![64, 128]⟩ .f32)
    (b1 : FVec Ideal ⟨1, ![128]⟩ .f32) (W2 : FVec Ideal ⟨2, ![128, 1]⟩ .f32) (b2 : FVec Ideal ⟨1, ![1]⟩ .f32)
    (h : (⟨2, ![100000, 1]⟩ : Shape).ShapeCasts ⟨1, ![100000]⟩) :
    shapeCast ⟨1, ![100000]⟩ (scoresCol aggr W1 b1 W2 b2) h = scores aggr W1 b1 W2 b2 := by
  funext i
  obtain ⟨r, rfl⟩ : ∃ r : Fin 100000, i = ix1 r := ⟨i 0, eq_ix1 i⟩
  refine (shapeCast_apply (scoresCol aggr W1 b1 W2 b2) h (ix1 r) (ix2 r (0 : Fin 1)) ?_).trans rfl
  rw [Shape.rowMajor_val_two, Shape.rowMajor_val_one]
  show r.val * 1 + 0 = r.val
  omega

end Cert.Mlp

end
-- ==== Proof.KernelBlock.lean ====
/-
  What one grid point of the kernel computes, entry by entry: the body loads a block of 10000 rows of the aggregated
  features and the four parameter arrays whole, rounds them for the matrix unit (a change of format, which is the
  identity on the extended reals), and stores `max (a · W1 + b1) 0 · W2 + b2` for the block.  Entry (p, 0) of what it
  stores is the score of row `p` of the block.
-/
import proofs.«157727_j3229815407293_2_alg».proof.Proof.Gen.KernelIdeal.Skeleton
import proofs.«157727_j3229815407293_2_alg».proof.Proof.Spec

noncomputable section

open scoped BigOperators

namespace Cert.KernelIdeal.Block

open Cert.KernelIdeal Cert.KernelIdeal.Gen Idealize.ShloMosaic Idealize.ShloMosaic.ValueIdx

/-- Entry (p, q) of the value the body stores, from the blocks it loaded: the score of row `p` of the feature block
    under the loaded parameters. -/
theorem pay_apply (x0 : FVec Ideal S10000x64 .f32) (x1 : FVec Ideal S64x128 .f32) (x2 : FVec Ideal S128 .f32)
    (x3 : FVec Ideal S128x1 .f32) (x4 : FVec Ideal S1 .f32) (p : Fin 10000) (q : Fin 1) :
    k0_pay1 (F := Ideal) x0 x1 x2 x3 x4 (ix2 p q) = Cert.Mlp.score (fun k => x0 (ix2 p k)) x1 x2 x3 x4 := by
  obtain rfl : q = 0 := Subsingleton.elim _ _
  unfold k0_pay1 Cert.Mlp.score
  refine congrArg₂ (· + ·) ?_ ?_
  · refine (Cert.Mlp.matmul_entry _ rfl _ _ p (0 : Fin 1)).trans ?_
    refine Finset.sum_congr rfl fun j _ => ?_
    refine congrArg₂ (· * ·) ?_ rfl
    refine congrArg₂ max ?_ rfl
    refine congrArg₂ (· + ·) ?_ ?_
    · refine (Cert.Mlp.matmul_entry _ rfl _ _ p j).trans ?_
      refine Finset.sum_congr rfl fun k _ => ?_
      refine congrArg₂ (· * ·) ?_ rfl
      exact congrFun (shapeCast_self x0 _) (ix2 p k)
    · exact Cert.Mlp.rowBias_apply x2 _ _ p j
  · exact Cert.Mlp.rowBias_apply x4 _ _ p (0 : Fin 1)

end Cert.KernelIdeal.Block

end
-- ==== Proof.KernelArray.lean ====
/-
  From the grid's blocks to the whole array.  The grid has ten points; point `t` reads rows 10000·t … 10000·t + 9999 of
  the aggregated features (and the four parameter arrays whole, at every point) and writes back rows
  10000·t … 10000·t + 9999 of the one-column result.  Since a row's score depends on that row only, what point `t`
  writes back is block `t` of the column of all scores; the ten blocks tile the 100000 rows (row `r` is in block
  `r / 10000`), so after the region the result array is the column of scores of the arrays the region found.
-/
import proofs.«157727_j3229815407293_2_alg».proof.Proof.Gen.KernelIdeal.Frame
import proofs.«157727_j3229815407293_2_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The block indices of the six windows at point `t`, decided over the ten points: the feature window and the result
    window are at block `t` of their rows, every parameter window at its one block. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-! ## Each window's block at a point, read off any contents of its array -/

/-- Row `p` of the feature window's block at point `t` is row `10000·t + p` of the array. -/
theorem feat_read (A : S100000x64.Idx → Elt Ideal .f32) (t : Fin cfg0.N) (p : Fin 10000) (k : Fin 64) (R : Fin 100000)
    (hR : R.val = t.val * 10000 + p.val) :
    (((cfg0.win 0).blk t).view.read (Elt Ideal) A : Vec Ideal S10000x64 .f32) (ix2 p k) = A (ix2 R k) := by
  obtain ⟨e0, e1, -⟩ := idx_facts t
  rw [View.read_apply]
  show A _ = A _
  refine congrArg A (funext fun a => Fin.ext ?_)
  match a with
  | ⟨0, _⟩ => show win0_0.index t (0 : Fin 2) * 10000 + 1 * p.val = R.val; rw [e0, hR]; omega
  | ⟨1, _⟩ => show win0_0.index t (1 : Fin 2) * 64 + 1 * k.val = k.val; rw [e1]; omega

/-- Row `p` of the result window's block at point `t` is row `10000·t + p` of the array. -/
theorem out_read (G : S100000x1.Idx → Elt Ideal .f32) (t : Fin cfg0.N) (p : Fin 10000) (q : Fin 1) (R : Fin 100000)
    (hR : R.val = t.val * 10000 + p.val) :
    (((cfg0.win 5).blk t).view.read (Elt Ideal) G : Vec Ideal S10000x1 .f32) (ix2 p q) = G (ix2 R (0 : Fin 1)) := by
  obtain ⟨-, -, e2, e3, -⟩ := idx_facts t
  rw [View.read_apply]
  show G _ = G _
  refine congrArg G (funext fun a => Fin.ext ?_)
  have hq : q.val = 0 := by have := q.isLt; omega
  match a with
  | ⟨0, _⟩ => show win0_5.index t (0 : Fin 2) * 10000 + 1 * p.val = R.val; rw [e2, hR]; omega
  | ⟨1, _⟩ => show win0_5.index t (1 : Fin 2) * 1 + 1 * q.val = 0; rw [e3, hq]

/-- The first layer's weights are read whole at every point. -/
theorem w1_read (A : S64x128.Idx → Elt Ideal .f32) (t : Fin cfg0.N) :
    (((cfg0.win 1).blk t).view.read (Elt Ideal) A : Vec Ideal S64x128 .f32) = A := by
  obtain ⟨-, -, -, -, e4, e5, -⟩ := idx_facts t
  funext y
  rw [View.read_apply]
  show A _ = A y
  refine congrArg A (funext fun a => Fin.ext ?_)
  match a with
  | ⟨0, _⟩ => show win0_1.index t (0 : Fin 2) * 64 + 1 * (y 0).val = (y 0).val; rw [e4]; omega
  | ⟨1, _⟩ => show win0_1.index t (1 : Fin 2) * 128 + 1 * (y 1).val = (y 1).val; rw [e5]; omega

/-- The first layer's bias is read whole at every point. -/
theorem b1_read (A : S128.Idx → Elt Ideal .f32) (t : Fin cfg0.N) :
    (((cfg0.win 2).blk t).view.read (Elt Ideal) A : Vec Ideal S128 .f32) = A := by
  obtain ⟨-, -, -, -, -, -, e6, -⟩ := idx_facts t
  funext y
  rw [View.read_apply]
  show A _ = A y
  refine congrArg A (funext fun a => Fin.ext ?_)
  match a with
  | ⟨0, _⟩ => show win0_2.index t (0 : Fin 1) * 128 + 1 * (y 0).val = (y 0).val; rw [e6]; omega

/-- The second layer's weights are read whole at every point. -/
theorem w2_read (A : S128x1.Idx → Elt Ideal .f32) (t : Fin cfg0.N) :
    (((cfg0.win 3).blk t).view.read (Elt Ideal) A : Vec Ideal S128x1 .f32) = A := by
  obtain ⟨-, -, -, -, -, -, -, e7, e8, -⟩ := idx_facts t
  funext y
  rw [View.read_apply]
  show A _ = A y
  refine congrArg A (funext fun a => Fin.ext ?_)
  match a with
  | ⟨0, _⟩ => show win0_3.index t (0 : Fin 2) * 128 + 1 * (y 0).val = (y 0).val; rw [e7]; omega
  | ⟨1, _⟩ => show win0_3.index t (1 : Fin 2) * 1 + 1 * (y 1).val = (y 1).val; rw [e8]; omega

/-- The second layer's bias is read whole at every point. -/
theorem b2_read (A : S1.Idx → Elt Ideal .f32) (t : Fin cfg0.N) :
    (((cfg0.win 4).blk t).view.read (Elt Ideal) A : Vec Ideal S1 .f32) = A := by
  obtain ⟨-, -, -, -, -, -, -, -, -, e9⟩ := idx_facts t
  funext y
  rw [View.read_apply]
  show A _ = A y
  refine congrArg A (funext fun a => Fin.ext ?_)
  match a with
  | ⟨0, _⟩ => show win0_4.index t (0 : Fin 1) * 1 + 1 * (y 0).val = (y 0).val; rw [e9]; omega

/-! ## What a point writes back, and the array after the region -/

/-- The column of all scores, of the arrays as the region finds them (feature window first, then the four parameter
    windows in the call's order). -/
def column (c : Dev nD) : S100000x1.Idx → Elt Ideal .f32 :=
  Cert.Mlp.scoresCol (V m c (Pipeline.arrRef spec0 0)) (V m c (Pipeline.arrRef spec0 1)) (V m c (Pipeline.arrRef spec0 2))
    (V m c (Pipeline.arrRef spec0 3)) (V m c (Pipeline.arrRef spec0 4))

/-- What point `t` writes back is block `t` of the column of all scores. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after0_5]
  unfold out0_5
  rw [View.canon_unit_zero hz2]
  simp only [View.ld_unit_zero (S := S10000x64) hz2, View.ld_unit_zero (S := S64x128) hz2, View.ld_unit_zero (S := S128) hz1,
    View.ld_unit_zero (S := S128x1) hz2, View.ld_unit_zero (S := S1) hz1]
  unfold iblk
  rw [w1_read, b1_read, w2_read, b2_read]
  have ht : t.val < 10 := by have h := t.isLt; have hN : cfg0.N = 10 := N_0; omega
  funext j
  obtain ⟨p, q, rfl⟩ : ∃ (p : Fin 10000) (q : Fin 1), j = ix2 p q := ⟨j 0, j 1, eq_ix2 (n0 := 10000) (n1 := 1) j⟩
  show k0_pay1 (F := Ideal) (((cfg0.win 0).blk t).view.read (Elt Ideal) (V m c (Pipeline.arrRef spec0 0)))
      (V m c (Pipeline.arrRef spec0 1)) (V m c (Pipeline.arrRef spec0 2)) (V m c (Pipeline.arrRef spec0 3))
      (V m c (Pipeline.arrRef spec0 4)) (ix2 p q) = _
  refine (Block.pay_apply _ _ _ _ _ p q).trans ?_
  refine Eq.trans ?_ (out_read (column m c) t p q ⟨t.val * 10000 + p.val, by omega⟩ rfl).symm
  unfold column Cert.Mlp.scoresCol
  refine congrArg (fun a => Cert.Mlp.score a (V m c (Pipeline.arrRef spec0 1)) (V m c (Pipeline.arrRef spec0 2))
    (V m c (Pipeline.arrRef spec0 3)) (V m c (Pipeline.arrRef spec0 4))) (funext fun k => ?_)
  exact feat_read _ t p k ⟨t.val * 10000 + p.val, by omega⟩ rfl

/-- An index of the result array is in point `t`'s block iff each coordinate is in the block's range on its axis. -/
theorem mem_blk (t : Fin cfg0.N) (i : S100000x1.Idx) :
    i ∈ ((cfg0.win 5).blk t).view.set ↔ ∀ a : Fin 2, win0_5.index t a * S10000x1.size a ≤ (i a).val ∧ (i a).val < win0_5.index t a * S10000x1.size a + S10000x1.size a := by
  show i ∈ ((View.whole main_v16).slice (win0_5.rect t)).set ↔ _
  rw [View.set_slice_whole, Rect.mem_set_unit]
  exact Iff.rfl

/-- The ten blocks tile the result array (row `r` is in block `r / 10000`), so after the region it is the column of
    all scores. -/
theorem final (c : Dev nD) : (dats m 0 c).arrAt 5 cfg0.N = column m c :=
  (dats m 0 c).arrAt_eq_of_cover 5 (column m c) (fun t _ => flushed_eq m c t) fun i => by
    have hi0 : (i 0).val < 100000 := (i 0).isLt
    have hi1 : (i 1).val < 1 := (i 1).isLt
    have hN : cfg0.N = 10 := N_0
    have hlt : (i 0).val / 10000 < cfg0.N := by rw [hN]; omega
    obtain ⟨-, -, e2, e3, -⟩ := idx_facts ⟨(i 0).val / 10000, hlt⟩
    refine ⟨⟨(i 0).val / 10000, hlt⟩, flush0_5 _, ?_⟩
    rw [mem_blk]
    intro a
    match a with
    | ⟨0, _⟩ =>
      show win0_5.index ⟨(i 0).val / 10000, hlt⟩ (0 : Fin 2) * 10000 ≤ (i 0).val
        ∧ (i 0).val < win0_5.index ⟨(i 0).val / 10000, hlt⟩ (0 : Fin 2) * 10000 + 10000
      rw [e2]; show (i 0).val / 10000 * 10000 ≤ (i 0).val ∧ (i 0).val < (i 0).val / 10000 * 10000 + 10000; omega
    | ⟨1, _⟩ =>
      show win0_5.index ⟨(i 0).val / 10000, hlt⟩ (1 : Fin 2) * 1 ≤ (i 1).val
        ∧ (i 1).val < win0_5.index ⟨(i 0).val / 10000, hlt⟩ (1 : Fin 2) * 1 + 1
      rw [e3]; omega

end Cert.KernelIdeal.Arr

end
-- ==== Proof.Aggr.lean ====
/-
  The aggregated features are the same array in both programs.  Each program selects the source nodes (negative indices
  wrapped once by the node count), gathers their feature rows, and scatter-adds the gathered rows into the zero array
  at the destination nodes.  The kernel's program rounds the features to a narrower format before the gather and widens
  the gathered rows back before the scatter-add; on the extended reals both changes of format are the identity, so the
  array its region finds in the feature window is, operation for operation, the reference's scatter-add result of the
  same two arguments.  Neither the gather nor the scatter-add is ever opened.
-/
import proofs.«157727_j3229815407293_2_alg».proof.Proof.Gen.KernelIdeal.Frame
import proofs.«157727_j3229815407293_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Aggr

open Cert.KernelIdeal Cert.KernelIdeal.Gen

variable (m : (ℓ : Loc nD τ sig) → Buf (Elt Ideal) ℓ)

/-- The array the region finds in its feature window is the reference's scatter-add result of the feature and edge
    arguments. -/
theorem V_aggr (c : Dev nD) :
    (V m c main_v15 : S100000x64.Idx → Elt Ideal .f32)
      = Cert.ReferenceIdeal.Read.val_main_v13 (F := Ideal) (m ((c : Thread nD τ).loc main_arg0)) (m ((c : Thread nD τ).loc main_arg1)) := by
  show StableHlo.after hostOps0 (fun b => m (c, b)) (Proc.devRef .tc main_v15) = _
  after_results
  rfl

end Cert.KernelIdeal.Aggr

end
-- ==== Proof.KernelRun.lean ====
/-
  The kernel's whole program, read: the host operations before the region build the aggregated features, the region
  leaves the column of their scores in the result array, and the one host operation after the region drops the column's
  unit axis.  So the program ends with its result at the vector of scores of the aggregated features under the four
  parameter arguments — stated here with the aggregated features written as the reference's own scatter-add of the
  feature and edge arguments — and with its six arguments unchanged.
-/
import proofs.«157727_j3229815407293_2_alg».proof.Proof.KernelArray
import proofs.«157727_j3229815407293_2_alg».proof.Proof.Aggr
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

/-- After the host operation that follows the region, the program's result is the region's result array with its unit
    axis dropped. -/
theorem tail_eq (c : Dev nD) :
    Pipeline.afterTail₀ cfgs (dats m) 0 (V0 m) [hostOps1] c main_v17
      = shapeCast S100000 ((dats m 0 c).arrAt 5 cfg0.N) shapeCasts_S100000x1_S100000 := by
  unfold Pipeline.afterTail₀
  show StableHlo.after hostOps1 _ (Proc.devRef .tc main_v17) = _
  after_results
  funext i
  exact congrFun (congrArg (fun v => shapeCast S100000 v shapeCasts_S100000x1_S100000)
    (Pipeline.withArrays_arr spec0 launch0.win.arr_inj c (V0 m c) (fun w => (dats m 0 c).arrAt w cfg0.N) 5)) i

/-- The program's result after the run: the vector of scores of the aggregated features — written as the reference's
    scatter-add of the feature and edge arguments — under the four parameter arguments. -/
theorem result_eq (c : Dev nD) :
    Pipeline.afterTail₀ cfgs (dats m) 0 (V0 m) [hostOps1] c main_v17
      = Cert.Mlp.scores
          (Cert.ReferenceIdeal.Read.val_main_v13 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  have h0 : (V m c (Pipeline.arrRef spec0 0) : S100000x64.Idx → Elt Ideal .f32)
      = Cert.ReferenceIdeal.Read.val_main_v13 (F := Ideal) (m ((c : Thread nD τ).loc main_arg0)) (m ((c : Thread nD τ).loc main_arg1)) :=
    Aggr.V_aggr m c
  have h1 : V m c (Pipeline.arrRef spec0 1) = m ((c : Thread nD τ).loc main_arg2) := V_main_arg2 m c
  have h2 : V m c (Pipeline.arrRef spec0 2) = m ((c : Thread nD τ).loc main_arg3) := V_main_arg3 m c
  have h3 : V m c (Pipeline.arrRef spec0 3) = m ((c : Thread nD τ).loc main_arg4) := V_main_arg4 m c
  have h4 : V m c (Pipeline.arrRef spec0 4) = m ((c : Thread nD τ).loc main_arg5) := V_main_arg5 m c
  rw [tail_eq, final]
  unfold column
  rw [h0, h1, h2, h3, h4]
  exact Cert.Mlp.squeeze_scoresCol _ _ _ _ _ _

/-- Every weakly fair execution of the kernel's program terminates with its result at the vector of scores and its
    six arguments unchanged. -/
theorem run : θ_run defs (onTc (τ := τ) (main (F := Ideal))) ⟨m, fun _ => 0, ρ⟩ fun r => ∀ c : Dev nD,
      r.2.mem ((c.tc : Thread nD τ).loc main_v17) = Cert.Mlp.scores
          (Cert.ReferenceIdeal.Read.val_main_v13 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.Arr

end
-- ==== Proof.RefScore.lean ====
/-
  The reference's result, read entry by entry: after the gather and the scatter-add have built the aggregated features,
  the reference multiplies by W1, adds b1 along the rows, clamps at zero, multiplies by the one column of W2, adds b2 and
  drops the unit axis.  Entry `r` of its result is the score of row `r` of the aggregated features.
-/
import proofs.«157727_j3229815407293_2_alg».proof.Proof.Gen.ReferenceIdeal.Read
import proofs.«157727_j3229815407293_2_alg».proof.Proof.Spec

noncomputable section

open scoped BigOperators

namespace Cert.ReferenceIdeal.RefValue

open Cert.ReferenceIdeal Cert.ReferenceIdeal.Read Idealize.ShloMosaic Idealize.ShloMosaic.ValueIdx

/-- Entry `r` of the reference's result is the score of row `r` of the scatter-add's result. -/
theorem result_apply (x0 : (⟨S100000x64, .f32⟩ : BufTy).Contents (Elt Ideal)) (x1 : (⟨S2x1280000, .i32⟩ : BufTy).Contents (Elt Ideal))
    (x2 : (⟨S64x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) (r : Fin 100000) :
    val_main_v23 (F := Ideal) x0 x1 x2 x3 x4 x5 (ix1 r)
      = Cert.Mlp.score (fun k => val_main_v13 (F := Ideal) x0 x1 (ix2 r k)) x2 x3 x4 x5 := by
  have i23 : idx_main_v23 (ix1 r) = ix2 r (0 : Fin 1) := funext fun a => Fin.ext (by
    match a with
    | ⟨0, _⟩ => exact Nat.div_one _
    | ⟨1, _⟩ => rfl)
  have l19 : ∀ j : Fin 128, lidx_main_v19 (ix2 r (0 : Fin 1)) j = ix2 r j := fun j => funext fun a => by
    match a with
    | ⟨0, _⟩ => rfl
    | ⟨1, _⟩ => rfl
  have r19 : ∀ j : Fin 128, ridx_main_v19 (ix2 r (0 : Fin 1)) j = ix2 j (0 : Fin 1) := fun j => funext fun a => by
    match a with
    | ⟨0, _⟩ => rfl
    | ⟨1, _⟩ => rfl
  have l14 : ∀ (j : Fin 128) (k : Fin 64), lidx_main_v14 (ix2 r j) k = ix2 r k := fun j k => funext fun a => by
    match a with
    | ⟨0, _⟩ => rfl
    | ⟨1, _⟩ => rfl
  have r14 : ∀ (j : Fin 128) (k : Fin 64), ridx_main_v14 (ix2 r j) k = ix2 k j := fun j k => funext fun a => by
    match a with
    | ⟨0, _⟩ => rfl
    | ⟨1, _⟩ => rfl
  have i15 : ∀ j : Fin 128, idx_main_v15 (idx_main_v16 (ix2 r j)) = ix1 j := fun j => funext fun a => by
    match a with
    | ⟨0, _⟩ => rfl
  have i20 : idx_main_v20 (idx_main_v21 (ix2 r (0 : Fin 1))) = ix1 (0 : Fin 1) := funext fun a => by
    match a with
    | ⟨0, _⟩ => rfl
  rw [val_main_v23_apply, i23, val_main_v22_apply, val_main_v19_apply, val_main_v21_apply, val_main_v20_apply, i20]
  unfold Cert.Mlp.score
  refine congrArg₂ (· + ·) ?_ rfl
  refine Finset.sum_congr rfl fun j _ => ?_
  rw [l19, r19, val_main_v18_apply, val_main_v17_apply, val_main_v14_apply, val_main_v16_apply, val_main_v15_apply, i15,
    val_main_call0_v0_apply, val_main_call0_cst_apply]
  refine congrArg₂ (· * ·) ?_ rfl
  refine congrArg₂ max ?_ rfl
  refine congrArg₂ (· + ·) ?_ rfl
  refine Finset.sum_congr rfl fun k _ => ?_
  rw [l14, r14]

/-- The reference's result is the vector of scores of the scatter-add's result. -/
theorem result_eq (x0 : (⟨S100000x64, .f32⟩ : BufTy).Contents (Elt Ideal)) (x1 : (⟨S2x1280000, .i32⟩ : BufTy).Contents (Elt Ideal))
    (x2 : (⟨S64x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v23 (F := Ideal) x0 x1 x2 x3 x4 x5 = Cert.Mlp.scores (val_main_v13 (F := Ideal) x0 x1) x2 x3 x4 x5 := by
  funext i
  obtain ⟨r, rfl⟩ : ∃ r : Fin 100000, i = ix1 r := ⟨i 0, eq_ix1 i⟩
  exact result_apply x0 x1 x2 x3 x4 x5 r

end Cert.ReferenceIdeal.RefValue

end
-- ==== Proof.lean ====
/-
  A graph layer's node scores, computed two ways, are one function of the arguments on the extended reals.

  Both programs first aggregate features over the edges: for every edge they take the feature row of its source node
  (a negative index wrapped once by the node count) and add it into the row of its destination node of an array that
  starts at zero.  Both then apply a two-layer perceptron to every row of the aggregate: `max (a · W1 + b1) 0 · W2 + b2`,
  one score per node.  The reference does the perceptron as whole-array host operations; the kernel's program does it in
  a grid of ten points, each on a block of 10000 rows, after rounding its matrix operands to a narrower format — a change
  of format, which on the extended reals is the identity.

  The aggregate is the same array in both programs, operation for operation (Proof/Aggr.lean), and is never opened.  A
  row's score depends on that row only (Proof/Spec.lean), so the block a grid point writes back is a block of the column
  of all scores (Proof/KernelBlock.lean, Proof/KernelArray.lean), the ten blocks tile the column, and the host operation
  after the region drops the column's unit axis (Proof/KernelRun.lean).  The reference's result, read entry by entry, is
  the same vector of scores (Proof/RefScore.lean).  No law of arithmetic is needed that could fail at an infinity: both
  sides are the same sums, products and maxima in the same order, so the finiteness of the inputs is never used.

  The three frames: the two kernel programs' are the generated frame certificates; the reference has no kernel, and its
  frame is its generated run with the result dropped.  The idealization rewrote nothing, so it has nothing to preserve.
-/
import proofs.«157727_j3229815407293_2_alg».proof.Defs
import proofs.«157727_j3229815407293_2_alg».proof.Proof.Gen.Kernel
import proofs.«157727_j3229815407293_2_alg».proof.Proof.Gen.Kernel.Skeleton
import proofs.«157727_j3229815407293_2_alg».proof.Proof.Gen.Kernel.Launch
import proofs.«157727_j3229815407293_2_alg».proof.Proof.Gen.Kernel.Points
import proofs.«157727_j3229815407293_2_alg».proof.Proof.Gen.Kernel.Frame
import proofs.«157727_j3229815407293_2_alg».proof.Proof.Gen.KernelIdeal
import proofs.«157727_j3229815407293_2_alg».proof.Proof.Gen.KernelIdeal.Skeleton
import proofs.«157727_j3229815407293_2_alg».proof.Proof.Gen.KernelIdeal.Launch
import proofs.«157727_j3229815407293_2_alg».proof.Proof.Gen.KernelIdeal.Points
import proofs.«157727_j3229815407293_2_alg».proof.Proof.Gen.KernelIdeal.Frame
import proofs.«157727_j3229815407293_2_alg».proof.Proof.Gen.ReferenceIdeal
import proofs.«157727_j3229815407293_2_alg».proof.Proof.Gen.Pre_finite_inputs
import proofs.«157727_j3229815407293_2_alg».proof.Proof.Gen.ReferenceIdeal.Run
import proofs.«157727_j3229815407293_2_alg».proof.Proof.Gen.ReferenceIdeal.Read
import proofs.«157727_j3229815407293_2_alg».proof.Proof.KernelRun
import proofs.«157727_j3229815407293_2_alg».proof.Proof.RefScore
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged: the generated frame certificate. -/
theorem frame_kernel : Cert.frame_Kernel := fun m ρ _ => Cert.Kernel.Gen.frame m ρ

/-- The same of the idealized kernel's program. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the vector of scores of the aggregated
    features: the kernel's program by its run read block by block, the reference by its run read entry by entry. -/
theorem algebraic : Cert.algebraic_KernelIdeal_ReferenceIdeal := by
  intro m ρ m' ρ' _ hagree
  refine ⟨fun c => Cert.Mlp.scores
      (Cert.ReferenceIdeal.Read.val_main_v13 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v23_eq, Cert.ReferenceIdeal.RefValue.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
